-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x256 : Shape := ⟨2, ![300000, 256]⟩
abbrev S50000x256 : Shape := ⟨2, ![50000, 256]⟩
abbrev S300000 : Shape := ⟨1, ![300000]⟩
abbrev S768x256 : Shape := ⟨2, ![768, 256]⟩
abbrev S256 : Shape := ⟨1, ![256]⟩
abbrev S_ : Shape := ⟨0, ![]⟩

class Facts : Prop where
  bcast_S_S300000x256 : S_.BroadcastsInDim S300000x256 (![] : Fin 0 → Fin S300000x256.rank)
  reducesTo_S300000x256_S_d0_1 : S300000x256.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S300000x256 .f32) (main_arg1 : FVec F S50000x256 .f32) (main_arg2 : IVec S300000 32) (main_arg3 : IVec S300000 32) (main_arg4 : FVec F S768x256 .f32) (main_arg5 : FVec F S256 .f32) : IVec S_ 1 :=
  let main_v0 : FVec F S300000x256 .f32 := Host.absf main_arg0
  let main_cst : FVec F S_ .f32 := constant S_ .f32 0x7F800000#32
  let main_v1 : FVec F S300000x256 .f32 := broadcastInDim S300000x256 ![] bcast_S_S300000x256 main_cst
  let main_v2 : IVec S300000x256 1 := cmpf .olt main_v0 main_v1
  let main_c : IVec S_ 1 := constantI S_ 1 1#1
  let main_v3 : IVec S_ 1 := (fun x v => Host.reduce IntOp.andi x v reducesTo_S300000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S768x256 .f32 := Host.absf main_arg4
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S300000x256 : Shape := ⟨2, ![300000, 256]⟩
abbrev S50000x256 : Shape := ⟨2, ![50000, 256]⟩
abbrev S300000 : Shape := ⟨1, ![300000]⟩
abbrev S768x256 : Shape := ⟨2, ![768, 256]⟩
abbrev S256 : Shape := ⟨1, ![256]⟩
abbrev S_ : Shape := ⟨0, ![]⟩
abbrev S300000x1 : Shape := ⟨2, ![300000, 1]⟩
abbrev S1 : Shape := ⟨1, ![1]⟩
abbrev S1x1 : Shape := ⟨2, ![1, 1]⟩
abbrev S256x256 : Shape := ⟨2, ![256, 256]⟩
abbrev S1200x256 : Shape := ⟨2, ![1200, 256]⟩
abbrev S1x256 : Shape := ⟨2, ![1, 256]⟩

abbrev nBuf : Space → Nat
  | .hbm => 56
  | .vmem => 12
  | .smem => 0
  | _ => 0

abbrev bufTy : (tb : Table) → Fin (tcTables nBuf tb) → BufTy
  | .hbm, ⟨0, _⟩ => ⟨S300000x256, .f32⟩
  | .hbm, ⟨1, _⟩ => ⟨S50000x256, .f32⟩
  | .hbm, ⟨2, _⟩ => ⟨S300000, .i32⟩
  | .hbm, ⟨3, _⟩ => ⟨S300000, .i32⟩
  | .hbm, ⟨4, _⟩ => ⟨S768x256, .f32⟩
  | .hbm, ⟨5, _⟩ => ⟨S256, .f32⟩
  | .hbm, ⟨6, _⟩ => ⟨S_, .i32⟩
  | .hbm, ⟨7, _⟩ => ⟨S300000, .i32⟩
  | .hbm, ⟨8, _⟩ => ⟨S300000, .i1⟩
  | .hbm, ⟨9, _⟩ => ⟨S_, .i32⟩
  | .hbm, ⟨10, _⟩ => ⟨S300000, .i32⟩
  | .hbm, ⟨11, _⟩ => ⟨S300000, .i32⟩
  | .hbm, ⟨12, _⟩ => ⟨S300000, .i32⟩
  | .hbm, ⟨13, _⟩ => ⟨S300000x1, .i32⟩
  | .hbm, ⟨14, _⟩ => ⟨S1, .i32⟩
  | .hbm, ⟨15, _⟩ => ⟨S_, .i32⟩
  | .hbm, ⟨16, _⟩ => ⟨S300000x1, .i32⟩
  | .hbm, ⟨17, _⟩ => ⟨S300000x1, .i1⟩
  | .hbm, ⟨18, _⟩ => ⟨S1x1, .i32⟩
  | .hbm, ⟨19, _⟩ => ⟨S300000x1, .i32⟩
  | .hbm, ⟨20, _⟩ => ⟨S300000x1, .i1⟩
  | .hbm, ⟨21, _⟩ => ⟨S300000x1, .i1⟩
  | .hbm, ⟨22, _⟩ => ⟨S_, .i1⟩
  | .hbm, ⟨23, _⟩ => ⟨S300000, .i1⟩
  | .hbm, ⟨24, _⟩ => ⟨S300000x256, .f32⟩
  | .hbm, ⟨25, _⟩ => ⟨S300000x256, .i1⟩
  | .hbm, ⟨26, _⟩ => ⟨S_, .f32⟩
  | .hbm, ⟨27, _⟩ => ⟨S300000x256, .f32⟩
  | .hbm, ⟨28, _⟩ => ⟨S300000x256, .f32⟩
  | .hbm, ⟨29, _⟩ => ⟨S_, .i32⟩
  | .hbm, ⟨30, _⟩ => ⟨S300000, .i32⟩
  | .hbm, ⟨31, _⟩ => ⟨S300000, .i1⟩
  | .hbm, ⟨32, _⟩ => ⟨S_, .i32⟩
  | .hbm, ⟨33, _⟩ => ⟨S300000, .i32⟩
  | .hbm, ⟨34, _⟩ => ⟨S300000, .i32⟩
  | .hbm, ⟨35, _⟩ => ⟨S300000, .i32⟩
  | .hbm, ⟨36, _⟩ => ⟨S300000x1, .i32⟩
  | .hbm, ⟨37, _⟩ => ⟨S1, .i32⟩
  | .hbm, ⟨38, _⟩ => ⟨S_, .i32⟩
  | .hbm, ⟨39, _⟩ => ⟨S300000x1, .i32⟩
  | .hbm, ⟨40, _⟩ => ⟨S300000x1, .i1⟩
  | .hbm, ⟨41, _⟩ => ⟨S1x1, .i32⟩
  | .hbm, ⟨42, _⟩ => ⟨S300000x1, .i32⟩
  | .hbm, ⟨43, _⟩ => ⟨S300000x1, .i1⟩
  | .hbm, ⟨44, _⟩ => ⟨S300000x1, .i1⟩
  | .hbm, ⟨45, _⟩ => ⟨S_, .i1⟩
  | .hbm, ⟨46, _⟩ => ⟨S300000, .i1⟩
  | .hbm, ⟨47, _⟩ => ⟨S300000x256, .f32⟩
  | .hbm, ⟨48, _⟩ => ⟨S300000x256, .i1⟩
  | .hbm, ⟨49, _⟩ => ⟨S_, .f32⟩
  | .hbm, ⟨50, _⟩ => ⟨S300000x256, .f32⟩
  | .hbm, ⟨51, _⟩ => ⟨S300000x256, .f32⟩
  | .hbm, ⟨52, _⟩ => ⟨S256x256, .f32⟩
  | .hbm, ⟨53, _⟩ => ⟨S256x256, .f32⟩
  | .hbm, ⟨54, _⟩ => ⟨S256x256, .f32⟩
  | .hbm, ⟨55, _⟩ => ⟨S300000x256, .f32⟩
  | .local _ .vmem, ⟨0, _⟩ => ⟨S1200x256, .f32⟩
  | .local _ .vmem, ⟨1, _⟩ => ⟨S1200x256, .f32⟩
  | .local _ .vmem, ⟨2, _⟩ => ⟨S1200x256, .f32⟩
  | .local _ .vmem, ⟨3, _⟩ => ⟨S1200x256, .f32⟩
  | .local _ .vmem, ⟨4, _⟩ => ⟨S1200x256, .f32⟩
  | .local _ .vmem, ⟨5, _⟩ => ⟨S1200x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256, .f32⟩
  | .local _ .vmem, ⟨10, _⟩ => ⟨S1200x256, .f32⟩
  | .local _ .vmem, ⟨11, _⟩ => ⟨S1200x256, .f32⟩
  | _, _ => ⟨S300000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1200x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1200x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1200x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  reducesTo_S300000x1_S300000_d1 : S300000x1.ReducesTo [1] S300000
  h_S_ : 0 < S_.numel
  bcast_S300000_S300000x256_0 : S300000.BroadcastsInDim S300000x256 (![0] : Fin 1 → Fin S300000x256.rank)
  bcast_S_S300000x256 : S_.BroadcastsInDim S300000x256 (![] : Fin 0 → Fin S300000x256.rank)
  slices_S768x256_S256x256_0_0 : S768x256.Slices ![0, 0] S256x256
  slices_S768x256_S256x256_256_0 : S768x256.Slices ![256, 0] S256x256
  slices_S768x256_S256x256_512_0 : S768x256.Slices ![512, 0] S256x256
  inb_S1200x256_S1200x256_0_0 : ∀ a, (![0, 0] : Fin 2 → Nat) a + S1200x256.size a ≤ S1200x256.size a
  h_S1200x256 : 0 < S1200x256.numel
  bitsLt_bf16_f32 : FTy.bits .bf16 < FTy.bits .f32
  shapeCasts_S1200x256_S1200x256 : S1200x256.ShapeCasts S1200x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S1200x256 : S1x256.Broadcasts S1200x256
  gather_S50000x256_S300000x1_S300000x256_1_0_n_n_0_1_1256_wf : GatherDims.WF S50000x256 S300000x1 S300000x256 [1] [0] [] [0] [] 1 ![1, 256]
  dot_S1200x256_S256x256_S1200x256_1_0_0_1_n_n_wf : DotDims.WF S1200x256 S256x256 S1200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1200x256.size a ≤ S300000x256.size a
  hwx0_0 : ∀ i : grid0.Coords, EltTy.bits .f32 = 32 ∨ (Rect.block (s := S300000x256) S1200x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1200x256.size a ≤ S300000x256.size a
  hwx0_1 : ∀ i : grid0.Coords, EltTy.bits .f32 = 32 ∨ (Rect.block (s := S300000x256) S1200x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1200x256.size a ≤ S300000x256.size a
  hwx0_2 : ∀ i : grid0.Coords, EltTy.bits .f32 = 32 ∨ (Rect.block (s := S300000x256) S1200x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1200x256.size a ≤ S300000x256.size a
  hwx0_7 : ∀ i : grid0.Coords, EltTy.bits .f32 = 32 ∨ (Rect.block (s := S300000x256) S1200x256.size (cc0_transform_7 i) (hinb0_7 i)).WholeWords (EltTy.packing .f32)

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def dot_S1200x256_S256x256_S1200x256_1_0_0_1_n_n : DotDims S1200x256 S256x256 S1200x256 where
  lhsContracting := [1]
  rhsContracting := [0]
  lhsNonContracting := [0]
  rhsNonContracting := [1]
  lhsBatch := []
  rhsBatch := []
  wf := dot_S1200x256_S256x256_S1200x256_1_0_0_1_n_n_wf

abbrev win0_0 : Pipeline.Window sig grid0 :=
  Pipeline.Window.ofSpec (Memref.whole main_arg0) S1200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1200x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1200x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1200x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S300000x256 : Shape := ⟨2, ![300000, 256]⟩
abbrev S50000x256 : Shape := ⟨2, ![50000, 256]⟩
abbrev S300000 : Shape := ⟨1, ![300000]⟩
abbrev S768x256 : Shape := ⟨2, ![768, 256]⟩
abbrev S256 : Shape := ⟨1, ![256]⟩
abbrev S_ : Shape := ⟨0, ![]⟩
abbrev S300000x1 : Shape := ⟨2, ![300000, 1]⟩
abbrev S1 : Shape := ⟨1, ![1]⟩
abbrev S1x1 : Shape := ⟨2, ![1, 1]⟩
abbrev S300000x768 : Shape := ⟨2, ![300000, 768]⟩
abbrev S1x256 : Shape := ⟨2, ![1, 256]⟩

abbrev nBuf : Space → Nat
  | .hbm => 60
  | .vmem => 0
  | .smem => 0
  | _ => 0

abbrev bufTy : (tb : Table) → Fin (tcTables nBuf tb) → BufTy
  | .hbm, ⟨0, _⟩ => ⟨S300000x256, .f32⟩
  | .hbm, ⟨1, _⟩ => ⟨S50000x256, .f32⟩
  | .hbm, ⟨2, _⟩ => ⟨S300000, .i32⟩
  | .hbm, ⟨3, _⟩ => ⟨S300000, .i32⟩
  | .hbm, ⟨4, _⟩ => ⟨S768x256, .f32⟩
  | .hbm, ⟨5, _⟩ => ⟨S256, .f32⟩
  | .hbm, ⟨6, _⟩ => ⟨S_, .i32⟩
  | .hbm, ⟨7, _⟩ => ⟨S300000, .i32⟩
  | .hbm, ⟨8, _⟩ => ⟨S300000, .i1⟩
  | .hbm, ⟨9, _⟩ => ⟨S_, .i32⟩
  | .hbm, ⟨10, _⟩ => ⟨S300000, .i32⟩
  | .hbm, ⟨11, _⟩ => ⟨S300000, .i32⟩
  | .hbm, ⟨12, _⟩ => ⟨S300000, .i32⟩
  | .hbm, ⟨13, _⟩ => ⟨S300000x1, .i32⟩
  | .hbm, ⟨14, _⟩ => ⟨S1, .i32⟩
  | .hbm, ⟨15, _⟩ => ⟨S_, .i32⟩
  | .hbm, ⟨16, _⟩ => ⟨S300000x1, .i32⟩
  | .hbm, ⟨17, _⟩ => ⟨S300000x1, .i1⟩
  | .hbm, ⟨18, _⟩ => ⟨S1x1, .i32⟩
  | .hbm, ⟨19, _⟩ => ⟨S300000x1, .i32⟩
  | .hbm, ⟨20, _⟩ => ⟨S300000x1, .i1⟩
  | .hbm, ⟨21, _⟩ => ⟨S300000x1, .i1⟩
  | .hbm, ⟨22, _⟩ => ⟨S_, .i1⟩
  | .hbm, ⟨23, _⟩ => ⟨S300000, .i1⟩
  | .hbm, ⟨24, _⟩ => ⟨S300000x256, .f32⟩
  | .hbm, ⟨25, _⟩ => ⟨S300000x256, .i1⟩
  | .hbm, ⟨26, _⟩ => ⟨S_, .f32⟩
  | .hbm, ⟨27, _⟩ => ⟨S300000x256, .f32⟩
  | .hbm, ⟨28, _⟩ => ⟨S300000x256, .f32⟩
  | .hbm, ⟨29, _⟩ => ⟨S_, .i32⟩
  | .hbm, ⟨30, _⟩ => ⟨S300000, .i32⟩
  | .hbm, ⟨31, _⟩ => ⟨S300000, .i1⟩
  | .hbm, ⟨32, _⟩ => ⟨S_, .i32⟩
  | .hbm, ⟨33, _⟩ => ⟨S300000, .i32⟩
  | .hbm, ⟨34, _⟩ => ⟨S300000, .i32⟩
  | .hbm, ⟨35, _⟩ => ⟨S300000, .i32⟩
  | .hbm, ⟨36, _⟩ => ⟨S300000x1, .i32⟩
  | .hbm, ⟨37, _⟩ => ⟨S1, .i32⟩
  | .hbm, ⟨38, _⟩ => ⟨S_, .i32⟩
  | .hbm, ⟨39, _⟩ => ⟨S300000x1, .i32⟩
  | .hbm, ⟨40, _⟩ => ⟨S300000x1, .i1⟩
  | .hbm, ⟨41, _⟩ => ⟨S1x1, .i32⟩
  | .hbm, ⟨42, _⟩ => ⟨S300000x1, .i32⟩
  | .hbm, ⟨43, _⟩ => ⟨S300000x1, .i1⟩
  | .hbm, ⟨44, _⟩ => ⟨S300000x1, .i1⟩
  | .hbm, ⟨45, _⟩ => ⟨S_, .i1⟩
  | .hbm, ⟨46, _⟩ => ⟨S300000, .i1⟩
  | .hbm, ⟨47, _⟩ => ⟨S300000x256, .f32⟩
  | .hbm, ⟨48, _⟩ => ⟨S300000x256, .i1⟩
  | .hbm, ⟨49, _⟩ => ⟨S_, .f32⟩
  | .hbm, ⟨50, _⟩ => ⟨S300000x256, .f32⟩
  | .hbm, ⟨51, _⟩ => ⟨S300000x256, .f32⟩
  | .hbm, ⟨52, _⟩ => ⟨S300000x768, .f32⟩
  | .hbm, ⟨53, _⟩ => ⟨S300000x256, .f32⟩
  | .hbm, ⟨54, _⟩ => ⟨S1x256, .f32⟩
  | .hbm, ⟨55, _⟩ => ⟨S300000x256, .f32⟩
  | .hbm, ⟨56, _⟩ => ⟨S300000x256, .f32⟩
  | .hbm, ⟨57, _⟩ => ⟨S_, .f32⟩
  | .hbm, ⟨58, _⟩ => ⟨S300000x256, .f32⟩
  | .hbm, ⟨59, _⟩ => ⟨S300000x256, .f32⟩
  | _, _ => ⟨S300000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_call2_cst : Ref sig .tc := ⟨.hbm, 57, rfl⟩
abbrev main_call2_v0 : Ref sig .tc := ⟨.hbm, 58, rfl⟩
abbrev main_v7 : Ref sig .tc := ⟨.hbm, 59, rfl⟩

abbrev nD : Nat := 1
abbrev τ : Topo := Topo.v7x

variable {F : FTy → Type} [FloatOps F]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  reducesTo_S300000x1_S300000_d1 : S300000x1.ReducesTo [1] S300000
  h_S_ : 0 < S_.numel
  bcast_S300000_S300000x256_0 : S300000.BroadcastsInDim S300000x256 (![0] : Fin 1 → Fin S300000x256.rank)
  bcast_S_S300000x256 : S_.BroadcastsInDim S300000x256 (![] : Fin 0 → Fin S300000x256.rank)
  concatenates_S300000x256_S300000x256_S300000x256_S300000x768_d1 : Shape.Concatenates [S300000x256, S300000x256, S300000x256] S300000x768 1
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  gather_S50000x256_S300000x1_S300000x256_1_0_n_n_0_1_1256_wf : GatherDims.WF S50000x256 S300000x1 S300000x256 [1] [0] [] [0] [] 1 ![1, 256]
  dot_S300000x768_S768x256_S300000x256_1_0_0_1_n_n_wf : DotDims.WF S300000x768 S768x256 S300000x256 [1] [0] [0] [1] [] []

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def dot_S300000x768_S768x256_S300000x256_1_0_0_1_n_n : DotDims S300000x768 S768x256 S300000x256 where
  lhsContracting := [1]
  rhsContracting := [0]
  lhsNonContracting := [0]
  rhsNonContracting := [1]
  lhsBatch := []
  rhsBatch := []
  wf := dot_S300000x768_S768x256_S300000x256_1_0_0_1_n_n_wf

class Facts : Prop extends Facts₀ where

variable [Facts]
-- ==== Proof.Spec.lean ====
/-
  The mathematics of the edge update, free of both programs.

  For every edge `r` and output feature `q` the layer computes
      max (∑ₖ x[r, k] · W[k, q] + b[q], 0)
  where the row `x[r, ·]` of 768 entries is the edge's own 256 features followed by the 256 features of its source node
  and the 256 features of its target node. One program forms that row and takes a single sum over the 768 products;
  the other never forms the row and adds three sums of 256 products, one per third of the weight matrix's rows. The two
  agree because a finite sum in a commutative monoid may be cut into consecutive runs: nothing but associativity of
  addition is used, so the equation holds for every extended real, the infinities included, and no finiteness of the
  inputs is needed.
-/
import Idealize.ShloMosaic.PureOps.Ideal
import Idealize.ShloMosaic.Lib.ValueIdx
import Mathlib.Algebra.BigOperators.Fin

noncomputable section

namespace Cert.EdgeLayer

open Idealize.ShloMosaic Idealize.ShloMosaic.ValueIdx

/-- The edge-feature arrays (the edges' own, and the two gathered ones): 300000 rows of 256. -/
abbrev Rows : Shape := ⟨2, ![300000, 256]⟩
/-- The weight matrix: 768 rows of 256. -/
abbrev Weights : Shape := ⟨2, ![768, 256]⟩
/-- The bias: 256 entries. -/
abbrev Bias : Shape := ⟨1, ![256]⟩

/-- A sum of 768 terms is the sum of its first, middle and last 256. -/
theorem sum_three {M : Type*} [AddCommMonoid M] (f : Fin 768 → M) :
    ∑ k : Fin 768, f k
      = (∑ k : Fin 256, f ⟨k.val, by omega⟩ + ∑ k : Fin 256, f ⟨256 + k.val, by omega⟩) + ∑ k : Fin 256, f ⟨512 + k.val, by omega⟩ := by
  show ∑ k : Fin (256 + 256 + 256), f k = _
  rw [Fin.sum_univ_add, Fin.sum_univ_add]
  rfl

/-- Row `k` of the weight matrix's first third. -/
abbrev wTop (k : Fin 256) : Fin 768 := ⟨k.val, by omega⟩
/-- Row `k` of its middle third. -/
abbrev wMid (k : Fin 256) : Fin 768 := ⟨256 + k.val, by omega⟩
/-- Row `k` of its last third. -/
abbrev wLow (k : Fin 256) : Fin 768 := ⟨512 + k.val, by omega⟩

/-- The layer at edge `r`, feature `q`, as three partial products: edge features against the first third of the
    weight rows, source features against the middle third, target features against the last third, added in that
    order, then the bias, then the maximum with zero. -/
def layerAt (e s t : Rows.Idx → EReal) (W : Weights.Idx → EReal) (b : Bias.Idx → EReal) (r : Fin 300000) (q : Fin 256) : EReal :=
  max (((∑ k : Fin 256, e (ix2 r k) * W (ix2 (wTop k) q) + ∑ k : Fin 256, s (ix2 r k) * W (ix2 (wMid k) q))
        + ∑ k : Fin 256, t (ix2 r k) * W (ix2 (wLow k) q)) + b (ix1 q))
    (Ideal.ofBits .f32 0x00000000#32)

/-- The whole result array. -/
def layer (e s t : Rows.Idx → EReal) (W : Weights.Idx → EReal) (b : Bias.Idx → EReal) : Rows.Idx → EReal :=
  fun i => layerAt e s t W b (i 0) (i 1)

/-- The same value from the concatenated row: if `x` at `(r, k)` is the edge's feature `k` for `k < 256`, its source
    node's feature `k − 256` for `256 ≤ k < 512` and its target node's feature `k − 512` beyond, the single sum over
    768 products is the three partial sums. -/
theorem layerAt_of_concat (e s t : Rows.Idx → EReal) (W : Weights.Idx → EReal) (b : Bias.Idx → EReal) (r : Fin 300000) (q : Fin 256)
    (x : Fin 768 → EReal)
    (h0 : ∀ k : Fin 256, x (wTop k) = e (ix2 r k)) (h1 : ∀ k : Fin 256, x (wMid k) = s (ix2 r k))
    (h2 : ∀ k : Fin 256, x (wLow k) = t (ix2 r k)) :
    max (∑ k : Fin 768, x k * W (ix2 k q) + b (ix1 q)) (Ideal.ofBits .f32 0x00000000#32) = layerAt e s t W b r q := by
  unfold layerAt
  rw [sum_three]
  simp only [h0, h1, h2]

end Cert.EdgeLayer

end
-- ==== Proof.KernelBody.lean ====
/-
  One block of the kernel, read at an entry.

  At a grid point the kernel body holds a block of 1200 edge rows `x0`, the matching blocks `x1`, `x2` of gathered
  source and target rows, the three 256 × 256 thirds `x3`, `x4`, `x5` of the weight matrix and the bias `x6`, and stores
  one 1200 × 256 block: the three matrix products into zero accumulators added left to right, the bias added to every
  row, and the maximum with zero. Over the extended reals the roundings to the narrower float format are the identity
  and a product into a zero accumulator is the plain sum over the contracted axis, so entry `(p, q)` of the stored
  block is
      max (((∑ₖ x0[p,k]·x3[k,q] + ∑ₖ x1[p,k]·x4[k,q]) + ∑ₖ x2[p,k]·x5[k,q]) + x6[q], 0).
-/
import proofs.«133019_j56186762167005_1_alg».proof.Proof.Gen.KernelIdeal.Skeleton
import proofs.«133019_j56186762167005_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The product's operand indices, axis by axis

Output entry `(p, q)` and contraction index `k` read the left operand at `(p, k)` and the right at `(k, q)`. -/

theorem lhs_row (i : S1200x256.Idx) (k : dot_S1200x256_S256x256_S1200x256_1_0_0_1_n_n.contr.Idx) : (dot_S1200x256_S256x256_S1200x256_1_0_0_1_n_n.lhsIdx i k 0).val = (i 0).val := by
  unfold DotDims.lhsIdx
  rw [dif_neg (show ¬(0 : Fin S1200x256.rank) ∈ dot_S1200x256_S256x256_S1200x256_1_0_0_1_n_n.lhsBatch by decide),
    dif_pos (show (0 : Fin S1200x256.rank) ∈ dot_S1200x256_S256x256_S1200x256_1_0_0_1_n_n.lhsNonContracting by decide)]
  rfl

theorem lhs_col (i : S1200x256.Idx) (k : dot_S1200x256_S256x256_S1200x256_1_0_0_1_n_n.contr.Idx) : (dot_S1200x256_S256x256_S1200x256_1_0_0_1_n_n.lhsIdx i k 1).val = (k ⟨0, by decide⟩).val :=
  dot_S1200x256_S256x256_S1200x256_1_0_0_1_n_n.lhsIdx_val_of_single rfl i k

theorem rhs_row (i : S1200x256.Idx) (k : dot_S1200x256_S256x256_S1200x256_1_0_0_1_n_n.contr.Idx) : (dot_S1200x256_S256x256_S1200x256_1_0_0_1_n_n.rhsIdx i k 0).val = (k ⟨0, by decide⟩).val :=
  dot_S1200x256_S256x256_S1200x256_1_0_0_1_n_n.rhsIdx_val_of_single rfl i k

theorem rhs_col (i : S1200x256.Idx) (k : dot_S1200x256_S256x256_S1200x256_1_0_0_1_n_n.contr.Idx) : (dot_S1200x256_S256x256_S1200x256_1_0_0_1_n_n.rhsIdx i k 1).val = (i 1).val := by
  unfold DotDims.rhsIdx
  rw [dif_neg (show ¬(1 : Fin S256x256.rank) ∈ dot_S1200x256_S256x256_S1200x256_1_0_0_1_n_n.rhsBatch by decide),
    dif_pos (show (1 : Fin S256x256.rank) ∈ dot_S1200x256_S256x256_S1200x256_1_0_0_1_n_n.rhsNonContracting by decide)]
  rfl

/-- A 1200 × 256 by 256 × 256 product into a zero accumulator, at entry `(p, q)`: the sum over the 256 contracted
    positions of the products. -/
theorem product_at {φ₁ φ₂ : FTy} (x : FVec Ideal S1200x256 φ₁) (w : FVec Ideal S256x256 φ₂) (p : Fin 1200) (q : Fin 256) :
    matmul dot_S1200x256_S256x256_S1200x256_1_0_0_1_n_n none x w (constant S1200x256 .f32 0x00000000#32) (ix2 p q)
      = ∑ k : Fin 256, x (ix2 p k) * w (ix2 k q) := by
  refine (Ideal.matmul_constant_zero_apply dot_S1200x256_S256x256_S1200x256_1_0_0_1_n_n none x w (ix2 p q)).trans ?_
  rw [← Equiv.sum_comp (contrEquiv1 dot_S1200x256_S256x256_S1200x256_1_0_0_1_n_n 256 rfl rfl).symm]
  refine Finset.sum_congr rfl fun k _ => ?_
  have hk := contrEquiv1_symm_val dot_S1200x256_S256x256_S1200x256_1_0_0_1_n_n 256 rfl rfl k
  have el : dot_S1200x256_S256x256_S1200x256_1_0_0_1_n_n.lhsIdx (ix2 p q) ((contrEquiv1 dot_S1200x256_S256x256_S1200x256_1_0_0_1_n_n 256 rfl rfl).symm k) = ix2 p k := funext fun a => Fin.ext (by
    match a with
    | ⟨0, _⟩ => exact lhs_row _ _
    | ⟨1, _⟩ => exact (lhs_col _ _).trans hk)
  have er : dot_S1200x256_S256x256_S1200x256_1_0_0_1_n_n.rhsIdx (ix2 p q) ((contrEquiv1 dot_S1200x256_S256x256_S1200x256_1_0_0_1_n_n 256 rfl rfl).symm k) = ix2 k q := funext fun a => Fin.ext (by
    match a with
    | ⟨0, _⟩ => exact (rhs_row _ _).trans hk
    | ⟨1, _⟩ => exact rhs_col _ _)
  rw [el, er]

/-- The bias laid along every row of the block: entry `(p, q)` is the bias at `q`. -/
theorem bias_at (b : FVec Ideal S256 .f32) (p : Fin 1200) (q : Fin 256) :
    broadcastTo S1200x256 (shapeCast S1x256 b shapeCasts_S256_S1x256) broadcasts_S1x256_S1200x256 (ix2 p q) = b (ix1 q) :=
  (broadcastTo_1b_ab_apply _ _ p q).trans (shapeCast_a_1a_apply b _ 0 q)

/-- THE BLOCK at an entry. -/
theorem stored_at (x0 x1 x2 : Vec Ideal S1200x256 .f32) (x3 x4 x5 : Vec Ideal S256x256 .f32) (x6 : Vec Ideal S256 .f32)
    (p : Fin 1200) (q : Fin 256) :
    k0_pay1 x0 x1 x2 x3 x4 x5 x6 (ix2 p q)
      = max (((∑ k : Fin 256, x0 (ix2 p k) * x3 (ix2 k q) + ∑ k : Fin 256, x1 (ix2 p k) * x4 (ix2 k q))
            + ∑ k : Fin 256, x2 (ix2 p k) * x5 (ix2 k q)) + x6 (ix1 q))
          (Ideal.ofBits .f32 0x00000000#32) := by
  unfold k0_pay1
  simp only [shapeCast_self]
  refine congrArg₂ max (congrArg₂ (· + ·) (congrArg₂ (· + ·) (congrArg₂ (· + ·) ?_ ?_) ?_) ?_) rfl
  · exact product_at _ _ p q
  · exact product_at _ _ p q
  · exact product_at _ _ p q
  · exact bias_at x6 p q

/-- THE BLOCK IS THE LAYER on its rows: when row `p` of the three row blocks is row `r` of three arrays `e`, `s`, `t`,
    the three weight blocks are the three thirds of `W` and the bias block is `b`, entry `(p, q)` of the stored block is
    the layer at edge `r`, feature `q`. -/
theorem stored_is_layer (e s t : Cert.EdgeLayer.Rows.Idx → EReal) (W : Cert.EdgeLayer.Weights.Idx → EReal) (b : Cert.EdgeLayer.Bias.Idx → EReal)
    (x0 x1 x2 : Vec Ideal S1200x256 .f32) (x3 x4 x5 : Vec Ideal S256x256 .f32) (x6 : Vec Ideal S256 .f32)
    (p : Fin 1200) (q : Fin 256) (r : Fin 300000)
    (h0 : ∀ k : Fin 256, x0 (ix2 p k) = e (ix2 r k)) (h1 : ∀ k : Fin 256, x1 (ix2 p k) = s (ix2 r k))
    (h2 : ∀ k : Fin 256, x2 (ix2 p k) = t (ix2 r k))
    (h3 : ∀ k : Fin 256, x3 (ix2 k q) = W (ix2 (Cert.EdgeLayer.wTop k) q))
    (h4 : ∀ k : Fin 256, x4 (ix2 k q) = W (ix2 (Cert.EdgeLayer.wMid k) q))
    (h5 : ∀ k : Fin 256, x5 (ix2 k q) = W (ix2 (Cert.EdgeLayer.wLow k) q))
    (h6 : x6 (ix1 q) = b (ix1 q)) :
    k0_pay1 x0 x1 x2 x3 x4 x5 x6 (ix2 p q) = Cert.EdgeLayer.layerAt e s t W b r q := by
  rw [stored_at]
  unfold Cert.EdgeLayer.layerAt
  simp only [h0, h1, h2, h3, h4, h5, h6]

end Cert.KernelIdeal.Body

end
-- ==== Proof.KernelHost.lean ====
/-
  What the kernel's launch finds in the arrays its host prelude computes.

  Before the kernel is launched its program gathers, exactly as the reference does, the source and the target node rows
  of every edge (`jnp.take`: a negative index wrapped once by the table's length, the filler row where the wrapped
  index is still outside the table), and cuts the 768 × 256 weight matrix into its three thirds of 256 rows. This
  module reads those five arrays, as the launch finds them, as functions of the launched arguments: the two gathered
  arrays as `takeRows` of the node table and an index array, the three thirds as slices of the weights.
-/
import proofs.«133019_j56186762167005_1_alg».proof.Proof.Gen.KernelIdeal.Frame
import Idealize.ShloMosaic.Lib.StableHlo.Run

noncomputable section

namespace Cert.KernelIdeal.HostVals

open Cert.KernelIdeal Cert.KernelIdeal.Gen Idealize.ShloMosaic Idealize.ShloMosaic.TcCoe Idealize.SL.Sem Idealize.ShloMosaic.StableHlo

variable {F : FTy → Type} [FloatOps F]

/-- `jnp.take(x, i, axis=0)`: row `r` of the result is row `i r` of the table `x`, with `i r` wrapped once by the
    table's length when negative, and the filler row where the wrapped index is still outside the table. -/
def takeRows (x : (⟨S50000x256, .f32⟩ : BufTy).Contents (Elt F)) (i : (⟨S300000, .i32⟩ : BufTy).Contents (Elt F)) :
    (⟨S300000x256, .f32⟩ : BufTy).Contents (Elt F) :=
  let wrapped : (⟨S300000, .i32⟩ : BufTy).Contents (Elt F) :=
    select (cmpi .slt i (broadcastInDim S300000 ![] bcast_S_S300000 (constantI S_ 32 0#32)))
      (addi i (broadcastInDim S300000 ![] bcast_S_S300000 (constantI S_ 32 50000#32))) i
  let col : (⟨S300000x1, .i32⟩ : BufTy).Contents (Elt F) := broadcastInDim S300000x1 ![0] bcast_S300000_S300000x1_0 wrapped
  let inside : (⟨S300000x1, .i1⟩ : BufTy).Contents (Elt F) :=
    andi (cmpi .sge col (broadcastInDim S300000x1 ![] bcast_S_S300000x1 (constantI S_ 32 0#32)))
      (cmpi .sle col (broadcastInDim S300000x1 ![0, 1] bcast_S1x1_S300000x1_0_1 (broadcastInDim S1x1 ![1] bcast_S1_S1x1_1 (constantI S1 32 49999#32))))
  let ok : (⟨S300000, .i1⟩ : BufTy).Contents (Elt F) := Host.reduce IntOp.andi inside (constantI S_ 1 1#1) reducesTo_S300000x1_S300000_d1 h_S_
  select (broadcastInDim S300000x256 ![0] bcast_S300000_S300000x256_0 ok)
    (Host.gather gather_S50000x256_S300000x1_S300000x256_1_0_n_n_0_1_1256 x col)
    (broadcastInDim S300000x256 ![] bcast_S_S300000x256 (constant S_ .f32 0x7FC00000#32))

variable (m : (ℓ : Loc nD τ sig) → Buf (Elt F) ℓ)

attribute [local irreducible] Host.reduce Host.gather in
set_option maxRecDepth 8192 in
set_option maxHeartbeats 1600000 in
/-- The rows gathered by the source indices, as the launch finds them. -/
theorem V_src (c : Dev nD) :
    (V m c main_v0 : (⟨S300000x256, .f32⟩ : BufTy).Contents (Elt F))
      = takeRows (m ((c : Thread nD τ).loc main_arg1)) (m ((c : Thread nD τ).loc main_arg2)) := by
  dsimp only [V]
  simp only [hostOps0, hostOps0_1, hostOps0_2, List.flatten_cons, List.flatten_nil, List.append_nil, List.cons_append, List.nil_append]
  after_results_simp
  rfl

attribute [local irreducible] Host.reduce Host.gather in
set_option maxRecDepth 8192 in
set_option maxHeartbeats 1600000 in
/-- The rows gathered by the target indices. -/
theorem V_tgt (c : Dev nD) :
    (V m c main_v1 : (⟨S300000x256, .f32⟩ : BufTy).Contents (Elt F))
      = takeRows (m ((c : Thread nD τ).loc main_arg1)) (m ((c : Thread nD τ).loc main_arg3)) := by
  dsimp only [V]
  simp only [hostOps0, hostOps0_1, hostOps0_2, List.flatten_cons, List.flatten_nil, List.append_nil, List.cons_append, List.nil_append]
  after_results_simp
  rfl

set_option maxRecDepth 8192 in
set_option maxHeartbeats 1600000 in
/-- The weight matrix's first 256 rows. -/
theorem V_wTop (c : Dev nD) :
    (V m c main_v2 : (⟨S256x256, .f32⟩ : BufTy).Contents (Elt F))
      = extractStridedSlice S256x256 ![0, 0] (m ((c : Thread nD τ).loc main_arg4)) slices_S768x256_S256x256_0_0 := by
  dsimp only [V]
  simp only [hostOps0, hostOps0_1, hostOps0_2, List.flatten_cons, List.flatten_nil, List.append_nil, List.cons_append, List.nil_append]
  after_results_simp

set_option maxRecDepth 8192 in
set_option maxHeartbeats 1600000 in
/-- Its middle 256 rows. -/
theorem V_wMid (c : Dev nD) :
    (V m c main_v3 : (⟨S256x256, .f32⟩ : BufTy).Contents (Elt F))
      = extractStridedSlice S256x256 ![256, 0] (m ((c : Thread nD τ).loc main_arg4)) slices_S768x256_S256x256_256_0 := by
  dsimp only [V]
  simp only [hostOps0, hostOps0_1, hostOps0_2, List.flatten_cons, List.flatten_nil, List.append_nil, List.cons_append, List.nil_append]
  after_results_simp

set_option maxRecDepth 8192 in
set_option maxHeartbeats 1600000 in
/-- Its last 256 rows. -/
theorem V_wLow (c : Dev nD) :
    (V m c main_v4 : (⟨S256x256, .f32⟩ : BufTy).Contents (Elt F))
      = extractStridedSlice S256x256 ![512, 0] (m ((c : Thread nD τ).loc main_arg4)) slices_S768x256_S256x256_512_0 := by
  dsimp only [V]
  simp only [hostOps0, hostOps0_1, hostOps0_2, List.flatten_cons, List.flatten_nil, List.append_nil, List.cons_append, List.nil_append]
  after_results_simp

end Cert.KernelIdeal.HostVals

end
-- ==== Proof.KernelValue.lean ====
/-
  The kernel's result array, as one function of the launched arguments.

  The kernel walks the 300000 edges in 250 blocks of 1200 rows. At block `t` it reads rows `1200 t … 1200 t + 1199` of
  the edge array and of the two gathered arrays, the whole of each third of the weight matrix and the whole bias, and
  writes rows `1200 t … 1200 t + 1199` of the result. Each written block is the layer on its rows, and the 250 blocks
  tile the result, so after the run the result array is the layer of the launched edge array, the two gathered arrays,
  the launched weights and the launched bias, at every entry.
-/
import proofs.«133019_j56186762167005_1_alg».proof.Proof.Gen.KernelIdeal.Value
import proofs.«133019_j56186762167005_1_alg».proof.Proof.KernelBody
import proofs.«133019_j56186762167005_1_alg».proof.Proof.KernelHost
import proofs.«133019_j56186762167005_1_alg».proof.Proof.Spec
import Idealize.ShloMosaic.Lib.Pipeline.Value
import Idealize.ShloMosaic.Lib.ValueLayout

noncomputable section

namespace Cert.KernelIdeal.Closed

open Cert.KernelIdeal Cert.KernelIdeal.Gen Idealize.ShloMosaic Idealize.ShloMosaic.TcCoe Idealize.SL.Sem
open Idealize.ShloMosaic.ValueIdx Cert.EdgeLayer Cert.KernelIdeal.HostVals
open Idealize.ShloMosaic.Pipeline (Dat)

variable (m : (ℓ : Loc nD τ sig) → Buf (Elt Ideal) ℓ) (ρ : Dev nD → PrngReg)

/-- What the result array ends holding: the layer of the launched edge features, the rows gathered from the launched
    node table by the launched source and target indices, the launched weights and bias. -/
def result (c : Dev nD) : S300000x256.Idx → EReal :=
  layer (m ((c : Thread nD τ).loc main_arg0))
    (takeRows (m ((c : Thread nD τ).loc main_arg1)) (m ((c : Thread nD τ).loc main_arg2)))
    (takeRows (m ((c : Thread nD τ).loc main_arg1)) (m ((c : Thread nD τ).loc main_arg3)))
    (m ((c : Thread nD τ).loc main_arg4)) (m ((c : Thread nD τ).loc main_arg5))

theorem origin2 : (![0, 0] : Fin 2 → Nat) = fun _ => 0 := funext fun a => by fin_cases a <;> rfl
theorem origin1 : (![0] : Fin 1 → Nat) = fun _ => 0 := funext fun a => by fin_cases a <;> rfl

/-- The printed index maps, decided over the 250 grid points: the three row windows and the result window are at
    block `(t, 0)`; the weight thirds and the bias stay at block 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-! ## The input blocks at a point, read off the launched arrays -/

/-- Row `p` of the edge block at point `t` is row `1200 t + p` of the edge array. -/
theorem edge_block (c : Dev nD) (t : Fin cfg0.N) (p : Fin 1200) (k : Fin 256) (r : Fin 300000) (hr : r.val = t.val * 1200 + p.val) :
    (iblk m c 0 t : Vec Ideal S1200x256 .f32) (ix2 p k) = (m ((c : Thread nD τ).loc main_arg0) : S300000x256.Idx → EReal) (ix2 r k) := by
  rw [← V_main_arg0 m c]
  show V m c main_arg0 (((cfg0.win 0).blk t).view.emb (ix2 p k)) = V m c main_arg0 (ix2 r k)
  have h : ((cfg0.win 0).blk t).view.emb (ix2 p k) = ix2 r k := by
    obtain ⟨e0, e1, -⟩ := block_indices t
    funext a; apply Fin.ext
    match a with
    | ⟨0, _⟩ => show win0_0.index t (0 : Fin 2) * 1200 + 1 * p.val = r.val; rw [e0, hr]; omega
    | ⟨1, _⟩ => show win0_0.index t (1 : Fin 2) * 256 + 1 * k.val = k.val; rw [e1]; omega
  rw [h]

/-- Row `p` of the source block at point `t` is row `1200 t + p` of the rows gathered by the source indices. -/
theorem src_block (c : Dev nD) (t : Fin cfg0.N) (p : Fin 1200) (k : Fin 256) (r : Fin 300000) (hr : r.val = t.val * 1200 + p.val) :
    (iblk m c 1 t : Vec Ideal S1200x256 .f32) (ix2 p k)
      = (takeRows (m ((c : Thread nD τ).loc main_arg1)) (m ((c : Thread nD τ).loc main_arg2)) : S300000x256.Idx → EReal) (ix2 r k) := by
  rw [← V_src m c]
  show V m c main_v0 (((cfg0.win 1).blk t).view.emb (ix2 p k)) = V m c main_v0 (ix2 r k)
  have h : ((cfg0.win 1).blk t).view.emb (ix2 p k) = ix2 r k := by
    obtain ⟨-, -, e0, e1, -⟩ := block_indices t
    funext a; apply Fin.ext
    match a with
    | ⟨0, _⟩ => show win0_1.index t (0 : Fin 2) * 1200 + 1 * p.val = r.val; rw [e0, hr]; omega
    | ⟨1, _⟩ => show win0_1.index t (1 : Fin 2) * 256 + 1 * k.val = k.val; rw [e1]; omega
  rw [h]

/-- Row `p` of the target block at point `t` is row `1200 t + p` of the rows gathered by the target indices. -/
theorem tgt_block (c : Dev nD) (t : Fin cfg0.N) (p : Fin 1200) (k : Fin 256) (r : Fin 300000) (hr : r.val = t.val * 1200 + p.val) :
    (iblk m c 2 t : Vec Ideal S1200x256 .f32) (ix2 p k)
      = (takeRows (m ((c : Thread nD τ).loc main_arg1)) (m ((c : Thread nD τ).loc main_arg3)) : S300000x256.Idx → EReal) (ix2 r k) := by
  rw [← V_tgt m c]
  show V m c main_v1 (((cfg0.win 2).blk t).view.emb (ix2 p k)) = V m c main_v1 (ix2 r k)
  have h : ((cfg0.win 2).blk t).view.emb (ix2 p k) = ix2 r k := by
    obtain ⟨-, -, -, -, e0, e1, -⟩ := block_indices t
    funext a; apply Fin.ext
    match a with
    | ⟨0, _⟩ => show win0_2.index t (0 : Fin 2) * 1200 + 1 * p.val = r.val; rw [e0, hr]; omega
    | ⟨1, _⟩ => show win0_2.index t (1 : Fin 2) * 256 + 1 * k.val = k.val; rw [e1]; omega
  rw [h]

/-- The first weight block at any point is the first third of the weight matrix. -/
theorem wTop_block (c : Dev nD) (t : Fin cfg0.N) (k q : Fin 256) :
    (iblk m c 3 t : Vec Ideal S256x256 .f32) (ix2 k q) = (m ((c : Thread nD τ).loc main_arg4) : S768x256.Idx → EReal) (ix2 (wTop k) q) := by
  show V m c main_v2 (((cfg0.win 3).blk t).view.emb (ix2 k q)) = _
  have h : ((cfg0.win 3).blk t).view.emb (ix2 k q) = ix2 k q := by
    obtain ⟨-, -, -, -, -, -, e0, e1, -⟩ := block_indices t
    funext a; apply Fin.ext
    match a with
    | ⟨0, _⟩ => show win0_3.index t (0 : Fin 2) * 256 + 1 * k.val = k.val; rw [e0]; omega
    | ⟨1, _⟩ => show win0_3.index t (1 : Fin 2) * 256 + 1 * q.val = q.val; rw [e1]; omega
  rw [h, V_wTop m c]
  exact slice2_axis0_apply 0 _ _ k q (wTop k) (by show k.val = 0 + k.val; omega)

/-- The second weight block is the middle third. -/
theorem wMid_block (c : Dev nD) (t : Fin cfg0.N) (k q : Fin 256) :
    (iblk m c 4 t : Vec Ideal S256x256 .f32) (ix2 k q) = (m ((c : Thread nD τ).loc main_arg4) : S768x256.Idx → EReal) (ix2 (wMid k) q) := by
  show V m c main_v3 (((cfg0.win 4).blk t).view.emb (ix2 k q)) = _
  have h : ((cfg0.win 4).blk t).view.emb (ix2 k q) = ix2 k q := by
    obtain ⟨-, -, -, -, -, -, -, -, e0, e1, -⟩ := block_indices t
    funext a; apply Fin.ext
    match a with
    | ⟨0, _⟩ => show win0_4.index t (0 : Fin 2) * 256 + 1 * k.val = k.val; rw [e0]; omega
    | ⟨1, _⟩ => show win0_4.index t (1 : Fin 2) * 256 + 1 * q.val = q.val; rw [e1]; omega
  rw [h, V_wMid m c]
  exact slice2_axis0_apply 256 _ _ k q (wMid k) rfl

/-- The third weight block is the last third. -/
theorem wLow_block (c : Dev nD) (t : Fin cfg0.N) (k q : Fin 256) :
    (iblk m c 5 t : Vec Ideal S256x256 .f32) (ix2 k q) = (m ((c : Thread nD τ).loc main_arg4) : S768x256.Idx → EReal) (ix2 (wLow k) q) := by
  show V m c main_v4 (((cfg0.win 5).blk t).view.emb (ix2 k q)) = _
  have h : ((cfg0.win 5).blk t).view.emb (ix2 k q) = ix2 k q := by
    obtain ⟨-, -, -, -, -, -, -, -, -, -, e0, e1, -⟩ := block_indices t
    funext a; apply Fin.ext
    match a with
    | ⟨0, _⟩ => show win0_5.index t (0 : Fin 2) * 256 + 1 * k.val = k.val; rw [e0]; omega
    | ⟨1, _⟩ => show win0_5.index t (1 : Fin 2) * 256 + 1 * q.val = q.val; rw [e1]; omega
  rw [h, V_wLow m c]
  exact slice2_axis0_apply 512 _ _ k q (wLow k) rfl

/-- The bias block at any point is the bias. -/
theorem bias_block (c : Dev nD) (t : Fin cfg0.N) (q : Fin 256) :
    (iblk m c 6 t : Vec Ideal S256 .f32) (ix1 q) = (m ((c : Thread nD τ).loc main_arg5) : S256.Idx → EReal) (ix1 q) := by
  rw [← V_main_arg5 m c]
  show V m c main_arg5 (((cfg0.win 6).blk t).view.emb (ix1 q)) = V m c main_arg5 (ix1 q)
  have h : ((cfg0.win 6).blk t).view.emb (ix1 q) = ix1 q := by
    obtain ⟨-, -, -, -, -, -, -, -, -, -, -, -, e0, -⟩ := block_indices t
    funext a; apply Fin.ext
    match a with
    | ⟨0, _⟩ => show win0_6.index t (0 : Fin 1) * 256 + 1 * q.val = q.val; rw [e0]; omega
  rw [h]

/-! ## What a point writes back, and the whole array -/

/-- WHAT POINT `t` WRITES BACK is block `t` of `result`. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero origin2]
  simp only [View.ld_unit_zero (S := S1200x256) origin2, View.ld_unit_zero (S := S256x256) origin2, View.ld_unit_zero (S := S256) origin1]
  funext j
  obtain ⟨p, q, rfl⟩ : ∃ (p : Fin 1200) (q : Fin 256), j = ix2 p q := ⟨j 0, j 1, eq_ix2 j⟩
  have hp : p.val < 1200 := p.isLt
  have ht : t.val < 250 := by have := t.isLt; have hN : cfg0.N = 250 := N_0; omega
  have hemb : ((cfg0.win 7).blk t).view.emb (ix2 p q) = ix2 (⟨t.val * 1200 + p.val, by omega⟩ : Fin 300000) q := by
    obtain ⟨-, -, -, -, -, -, -, -, -, -, -, -, -, e0, e1⟩ := block_indices t
    funext a; apply Fin.ext
    match a with
    | ⟨0, _⟩ => show win0_7.index t (0 : Fin 2) * 1200 + 1 * p.val = t.val * 1200 + p.val; rw [e0]; omega
    | ⟨1, _⟩ => show win0_7.index t (1 : Fin 2) * 256 + 1 * q.val = q.val; rw [e1]; omega
  show k0_pay1 (iblk m c 0 t) (iblk m c 1 t) (iblk m c 2 t) (iblk m c 3 t) (iblk m c 4 t) (iblk m c 5 t) (iblk m c 6 t) (ix2 p q)
      = result m c (((cfg0.win 7).blk t).view.emb (ix2 p q))
  rw [hemb]
  exact Cert.KernelIdeal.Body.stored_is_layer _ _ _ _ _ (iblk m c 0 t) (iblk m c 1 t) (iblk m c 2 t) (iblk m c 3 t) (iblk m c 4 t)
    (iblk m c 5 t) (iblk m c 6 t) p q ⟨t.val * 1200 + p.val, by omega⟩
    (fun k => edge_block m c t p k _ rfl) (fun k => src_block m c t p k _ rfl) (fun k => tgt_block m c t p k _ rfl)
    (fun k => wTop_block m c t k q) (fun k => wMid_block m c t k q) (fun k => wLow_block m c t k q) (bias_block m c t q)

/-- An index of the result array is in point `t`'s block iff its row is one of the block's 1200. -/
theorem mem_block (t : Fin cfg0.N) (i : S300000x256.Idx) :
    i ∈ ((cfg0.win 7).blk t).view.set ↔ ∀ a : Fin 2, win0_7.index t a * S1200x256.size a ≤ (i a).val ∧ (i a).val < win0_7.index t a * S1200x256.size a + S1200x256.size a := by
  show i ∈ ((View.whole main_v5).slice (win0_7.rect t)).set ↔ _
  rw [View.set_slice_whole, Rect.mem_set_unit]
  exact Iff.rfl

/-- Every entry of the result is written: row `r` by point `r / 1200`. -/
theorem covered (i : S300000x256.Idx) : ∃ t : Fin cfg0.N, (cfg0.win 7).flush t = true ∧ i ∈ ((cfg0.win 7).blk t).view.set := by
  have hi0 : (i 0).val < 300000 := (i 0).isLt
  have hi1 : (i 1).val < 256 := (i 1).isLt
  have hN : cfg0.N = 250 := N_0
  let t : Fin cfg0.N := ⟨(i 0).val / 1200, by rw [hN]; omega⟩
  refine ⟨t, flush0_7 t, ?_⟩
  rw [mem_block]
  obtain ⟨-, -, -, -, -, -, -, -, -, -, -, -, -, e0, e1⟩ := block_indices t
  have htv : t.val = (i 0).val / 1200 := rfl
  intro a
  match a with
  | ⟨0, _⟩ => show win0_7.index t (0 : Fin 2) * 1200 ≤ (i 0).val ∧ (i 0).val < win0_7.index t (0 : Fin 2) * 1200 + 1200; rw [e0, htv]; omega
  | ⟨1, _⟩ => show win0_7.index t (1 : Fin 2) * 256 ≤ (i 1).val ∧ (i 1).val < win0_7.index t (1 : Fin 2) * 256 + 256; rw [e1]; omega

/-- THE RESULT ARRAY after the run. -/
theorem final (c : Dev nD) : (dats m 0 c).arrAt 7 cfg0.N = result m c :=
  (dats m 0 c).arrAt_eq_of_cover 7 (result m c) (fun t _ => flushed_eq m c t) covered

/-- The kernel program's run, read: the result buffer ends at `result`, the six arguments as launched. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Closed

end
-- ==== Proof.RefRun.lean ====
/-
  The reference program's run, read back as a value.

  The reference gathers the source and target node rows of every edge (`jnp.take`, twice: an index below zero is
  wrapped once by the table's length, an index still outside the table selects a filler row), lays the edge row and
  the two gathered rows side by side into one row of 768 entries, multiplies by the 768 × 256 weight matrix, adds the
  bias along every row and takes the maximum with zero. Its @main is a straight line of 54 host operations once the
  three outlined functions are unfolded at their calls; this module lists them in order, shows @main is that list, and
  reads the fold of the list at the result buffer: the result is `layerTerm` of the edge array, the two gathered
  arrays `takeRows`, the weights and the bias; the six arguments end as they were launched.
-/
import proofs.«133019_j56186762167005_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The values -/

/-- `jnp.take(x, i, axis=0)`: row `r` of the result is row `i r` of the table `x`, with `i r` wrapped once by the
    table's length when negative, and the filler row where the wrapped index is still outside the table. -/
def takeRows (x : (⟨S50000x256, .f32⟩ : BufTy).Contents (Elt F)) (i : (⟨S300000, .i32⟩ : BufTy).Contents (Elt F)) :
    (⟨S300000x256, .f32⟩ : BufTy).Contents (Elt F) :=
  let wrapped : (⟨S300000, .i32⟩ : BufTy).Contents (Elt F) :=
    select (cmpi .slt i (broadcastInDim S300000 ![] bcast_S_S300000 (constantI S_ 32 0#32)))
      (addi i (broadcastInDim S300000 ![] bcast_S_S300000 (constantI S_ 32 50000#32))) i
  let col : (⟨S300000x1, .i32⟩ : BufTy).Contents (Elt F) := broadcastInDim S300000x1 ![0] bcast_S300000_S300000x1_0 wrapped
  let inside : (⟨S300000x1, .i1⟩ : BufTy).Contents (Elt F) :=
    andi (cmpi .sge col (broadcastInDim S300000x1 ![] bcast_S_S300000x1 (constantI S_ 32 0#32)))
      (cmpi .sle col (broadcastInDim S300000x1 ![0, 1] bcast_S1x1_S300000x1_0_1 (broadcastInDim S1x1 ![1] bcast_S1_S1x1_1 (constantI S1 32 49999#32))))
  let ok : (⟨S300000, .i1⟩ : BufTy).Contents (Elt F) := Host.reduce IntOp.andi inside (constantI S_ 1 1#1) reducesTo_S300000x1_S300000_d1 h_S_
  select (broadcastInDim S300000x256 ![0] bcast_S300000_S300000x256_0 ok)
    (Host.gather gather_S50000x256_S300000x1_S300000x256_1_0_n_n_0_1_1256 x col)
    (broadcastInDim S300000x256 ![] bcast_S_S300000x256 (constant S_ .f32 0x7FC00000#32))

/-- The dense layer on the concatenated rows: `max ([e | s | t] · W + b, 0)`. -/
def layerTerm (e s t : (⟨S300000x256, .f32⟩ : BufTy).Contents (Elt F)) (W : (⟨S768x256, .f32⟩ : BufTy).Contents (Elt F))
    (b : (⟨S256, .f32⟩ : BufTy).Contents (Elt F)) : (⟨S300000x256, .f32⟩ : BufTy).Contents (Elt F) :=
  maximumf
    (addf
      (Host.dotGeneral dot_S300000x768_S768x256_S300000x256_1_0_0_1_n_n none
        (concatenate S300000x768 1 [⟨S300000x256, e⟩, ⟨S300000x256, s⟩, ⟨S300000x256, t⟩] concatenates_S300000x256_S300000x256_S300000x256_S300000x768_d1) W)
      (broadcastInDim S300000x256 ![0, 1] bcast_S1x256_S300000x256_0_1 (broadcastInDim S1x256 ![1] bcast_S256_S1x256_1 b)))
    (broadcastInDim S300000x256 ![] bcast_S_S300000x256 (constant S_ .f32 0x00000000#32))

/-! ## @main as a list of operations -/

/-- The 23 operations of the first gather (by the source indices), in order. -/
abbrev srcOps : List (HloOp τ sig (Elt F)) :=
  [
    TRef.nullary main_call0.c (constantI S_ 32 0#32),
    TRef.unary main_call0.c main_call0.v0 (broadcastInDim S300000 ![] bcast_S_S300000),
    TRef.binary (.of main_arg2) main_call0.v0 main_call0.v1 (cmpi .slt),
    TRef.nullary main_call0.c_0 (constantI S_ 32 50000#32),
    TRef.unary main_call0.c_0 main_call0.v2 (broadcastInDim S300000 ![] bcast_S_S300000),
    TRef.binary (.of main_arg2) main_call0.v2 main_call0.v3 addi,
    TRef.ternary main_call0.v1 main_call0.v3 (.of main_arg2) main_call0.call0.v0 select,
    TRef.unary main_call0.call0.v0 main_call0.v5 (broadcastInDim S300000x1 ![0] bcast_S300000_S300000x1_0),
    TRef.nullary main_call0.c_1 (constantI S1 32 49999#32),
    TRef.nullary main_call0.c_2 (constantI S_ 32 0#32),
    TRef.unary main_call0.c_2 main_call0.v6 (broadcastInDim S300000x1 ![] bcast_S_S300000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S300000x1 ![0, 1] bcast_S1x1_S300000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S300000x1_S300000_d1 h_S_),
    TRef.binary (.of main_arg1) main_call0.v5 main_call0.v13 (fun x i => Host.gather gather_S50000x256_S300000x1_S300000x256_1_0_n_n_0_1_1256 x i),
    TRef.unary main_call0.v12 main_call0.v14 (broadcastInDim S300000x256 ![0] bcast_S300000_S300000x256_0),
    TRef.nullary main_call0.cst (constant S_ .f32 0x7FC00000#32),
    TRef.unary main_call0.cst main_call0.v15 (broadcastInDim S300000x256 ![] bcast_S_S300000x256),
    TRef.ternary main_call0.v14 main_call0.v13 main_call0.v15 main_call0.v16 select ]

/-- The 23 operations of the second gather (by the target indices). -/
abbrev tgtOps : List (HloOp τ sig (Elt F)) :=
  [
    TRef.nullary main_call1.c (constantI S_ 32 0#32),
    TRef.unary main_call1.c main_call1.v0 (broadcastInDim S300000 ![] bcast_S_S300000),
    TRef.binary (.of main_arg3) main_call1.v0 main_call1.v1 (cmpi .slt),
    TRef.nullary main_call1.c_0 (constantI S_ 32 50000#32),
    TRef.unary main_call1.c_0 main_call1.v2 (broadcastInDim S300000 ![] bcast_S_S300000),
    TRef.binary (.of main_arg3) main_call1.v2 main_call1.v3 addi,
    TRef.ternary main_call1.v1 main_call1.v3 (.of main_arg3) main_call1.call0.v0 select,
    TRef.unary main_call1.call0.v0 main_call1.v5 (broadcastInDim S300000x1 ![0] bcast_S300000_S300000x1_0),
    TRef.nullary main_call1.c_1 (constantI S1 32 49999#32),
    TRef.nullary main_call1.c_2 (constantI S_ 32 0#32),
    TRef.unary main_call1.c_2 main_call1.v6 (broadcastInDim S300000x1 ![] bcast_S_S300000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S300000x1 ![0, 1] bcast_S1x1_S300000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S300000x1_S300000_d1 h_S_),
    TRef.binary (.of main_arg1) main_call1.v5 main_call1.v13 (fun x i => Host.gather gather_S50000x256_S300000x1_S300000x256_1_0_n_n_0_1_1256 x i),
    TRef.unary main_call1.v12 main_call1.v14 (broadcastInDim S300000x256 ![0] bcast_S300000_S300000x256_0),
    TRef.nullary main_call1.cst (constant S_ .f32 0x7FC00000#32),
    TRef.unary main_call1.cst main_call1.v15 (broadcastInDim S300000x256 ![] bcast_S_S300000x256),
    TRef.ternary main_call1.v14 main_call1.v13 main_call1.v15 main_call1.v16 select ]

/-- The dense layer's 8 operations: the concatenation, the product, the bias's two broadcasts, the sum, and the
    rectifier's three. -/
abbrev denseOps : List (HloOp τ sig (Elt F)) :=
  [ nary ![main_arg0, main_v0, main_v1] main_v2 (fun u => concatenate S300000x768 1 [⟨S300000x256, u 0⟩, ⟨S300000x256, u 1⟩, ⟨S300000x256, u 2⟩] concatenates_S300000x256_S300000x256_S300000x256_S300000x768_d1),
    binary main_v2 main_arg4 main_v3 ((fun l r => Host.dotGeneral dot_S300000x768_S768x256_S300000x256_1_0_0_1_n_n none l r) : (⟨S300000x768, .f32⟩ : BufTy).Contents (Elt F) → (⟨S768x256, .f32⟩ : BufTy).Contents (Elt F) → (⟨S300000x256, .f32⟩ : BufTy).Contents (Elt F)),
    unary main_arg5 main_v4 (broadcastInDim S1x256 ![1] bcast_S256_S1x256_1 : (⟨S256, .f32⟩ : BufTy).Contents (Elt F) → (⟨S1x256, .f32⟩ : BufTy).Contents (Elt F)),
    unary main_v4 main_v5 (broadcastInDim S300000x256 ![0, 1] bcast_S1x256_S300000x256_0_1 : (⟨S1x256, .f32⟩ : BufTy).Contents (Elt F) → (⟨S300000x256, .f32⟩ : BufTy).Contents (Elt F)),
    binary main_v3 main_v5 main_v6 (addf : (⟨S300000x256, .f32⟩ : BufTy).Contents (Elt F) → (⟨S300000x256, .f32⟩ : BufTy).Contents (Elt F) → (⟨S300000x256, .f32⟩ : BufTy).Contents (Elt F)),
    TRef.nullary main_call2.cst (constant S_ .f32 0x00000000#32),
    TRef.unary main_call2.cst main_call2.v0 (broadcastInDim S300000x256 ![] bcast_S_S300000x256),
    TRef.binary (.of main_v6) main_call2.v0 main_call2.v1 maximumf ]

/-- @main's 54 operations in order, the calls unfolded: the first gather's, the second gather's, the dense layer's. -/
abbrev ops : List (HloOp τ sig (Elt F)) := srcOps ++ (tgtOps ++ denseOps)

set_option maxRecDepth 4096 in
/-- @main is that straight line: the functions' bodies unfolded at their calls, sequencing reassociated. -/
theorem main_eq (c : Dev nD) : main (F := F) c = seq ops := by
  simp only [main, fn_take.body, fn_where.body, fn_relu.body, ops, srcOps, tgtOps, denseOps, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..,
    nary_bufs_sub .., binary_bufs_sub .., unary_bufs_sub .., unary_bufs_sub .., binary_bufs_sub ..,
    nullary_bufs_sub .., unary_bufs_sub .., binary_bufs_sub ..⟩

/-- Every weakly fair execution of @main terminates with every buffer at the fold of the 54 operations over the
    launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold, read

The fold is read one stretch at a time, each over an arbitrary valuation, so that no term carries the whole program. -/

/-- The fold over two stretches is the fold over the second of the fold over the first. -/
theorem after_two (l₁ l₂ : List (HloOp τ sig (Elt F))) (V : Valuation τ sig (Elt F)) : after (l₁ ++ l₂) V = after l₂ (after l₁ V) := by
  induction l₁ generalizing V with
  | nil => rfl
  | cons op l ih => rw [List.cons_append, after_cons, after_cons, ih]

/-- An operation over three literal operand references (the concatenation) at its result buffer: its function of
    the three operands' contents, each at its own reference. -/
theorem nary3_result' {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

/-- A buffer none of a stretch's operations writes keeps its contents. -/
local macro "not_written" : tactic => `(tactic|
  exact after_of_forall_not_mem _ _ (List.forall_iff_forall_mem.mp (by
    simp only [srcOps, tgtOps, denseOps, List.Forall, nullary_writes, unary_writes, binary_writes, ternary_writes, nary_writes, Finset.mem_singleton]
    repeat' apply And.intro
    all_goals exact devRef_ne_of_ne (by decide))))

attribute [local irreducible] Host.reduce Host.gather in
set_option maxRecDepth 8192 in
set_option maxHeartbeats 1600000 in
/-- The first gather leaves `takeRows` of the node table and the source indices in its result buffer. -/
theorem src_result (V : Valuation τ sig (Elt F)) :
    after srcOps V (main_v0 : DevRef τ sig) = takeRows (V (main_arg1 : DevRef τ sig)) (V (main_arg2 : DevRef τ sig)) := by
  after_results_simp
  rfl

attribute [local irreducible] Host.reduce Host.gather in
set_option maxRecDepth 8192 in
set_option maxHeartbeats 1600000 in
/-- The second gather leaves `takeRows` of the node table and the target indices in its result buffer. -/
theorem tgt_result (V : Valuation τ sig (Elt F)) :
    after tgtOps V (main_v1 : DevRef τ sig) = takeRows (V (main_arg1 : DevRef τ sig)) (V (main_arg3 : DevRef τ sig)) := by
  after_results_simp
  rfl

theorem src_keeps (V : Valuation τ sig (Elt F)) :
    after srcOps V (main_arg0 : DevRef τ sig) = V (main_arg0 : DevRef τ sig)
    ∧ after srcOps V (main_arg1 : DevRef τ sig) = V (main_arg1 : DevRef τ sig)
    ∧ after srcOps V (main_arg3 : DevRef τ sig) = V (main_arg3 : DevRef τ sig)
    ∧ after srcOps V (main_arg4 : DevRef τ sig) = V (main_arg4 : DevRef τ sig)
    ∧ after srcOps V (main_arg5 : DevRef τ sig) = V (main_arg5 : DevRef τ sig) := by
  refine ⟨?_, ?_, ?_, ?_, ?_⟩ <;> not_written

theorem tgt_keeps (V : Valuation τ sig (Elt F)) :
    after tgtOps V (main_arg0 : DevRef τ sig) = V (main_arg0 : DevRef τ sig)
    ∧ after tgtOps V (main_v0 : DevRef τ sig) = V (main_v0 : DevRef τ sig)
    ∧ after tgtOps V (main_arg4 : DevRef τ sig) = V (main_arg4 : DevRef τ sig)
    ∧ after tgtOps V (main_arg5 : DevRef τ sig) = V (main_arg5 : DevRef τ sig) := by
  refine ⟨?_, ?_, ?_, ?_⟩ <;> not_written

set_option maxRecDepth 8192 in
set_option maxHeartbeats 1600000 in
/-- The dense stretch leaves the layer of the edge array, the two gathered arrays, the weights and the bias. -/
theorem dense_result (V : Valuation τ sig (Elt F)) :
    after denseOps V (main_v7 : DevRef τ sig)
      = layerTerm (V (main_arg0 : DevRef τ sig)) (V (main_v0 : DevRef τ sig)) (V (main_v1 : DevRef τ sig))
          (V (main_arg4 : DevRef τ sig)) (V (main_arg5 : DevRef τ sig)) := by
  simp (disch := decide) only [after_cons, after_nil, nullary_result', unary_result', binary_result', nary3_result',
    nullary_result_ne', unary_result_ne', binary_result_ne', nary_result_ne']
  rfl

/-- The fold at the result buffer: the layer of the edge array and the two gathered arrays. -/
theorem out_eq (V : Valuation τ sig (Elt F)) :
    after ops V (main_v7 : DevRef τ sig)
      = layerTerm (V (main_arg0 : DevRef τ sig)) (takeRows (V (main_arg1 : DevRef τ sig)) (V (main_arg2 : DevRef τ sig)))
          (takeRows (V (main_arg1 : DevRef τ sig)) (V (main_arg3 : DevRef τ sig))) (V (main_arg4 : DevRef τ sig)) (V (main_arg5 : DevRef τ sig)) := by
  show after (srcOps ++ (tgtOps ++ denseOps)) V (main_v7 : DevRef τ sig) = _
  rw [after_two, after_two, dense_result]
  obtain ⟨t0, t1, t4, t5⟩ := tgt_keeps (after srcOps V)
  obtain ⟨s0, s1, s3, s4, s5⟩ := src_keeps V
  rw [t0, t1, t4, t5, tgt_result, src_result, s0, s1, s3, s4, s5]

/-- No operation writes an argument's buffer. -/
theorem arg_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig) := by
  refine ⟨?_, ?_, ?_, ?_, ?_, ?_⟩ <;>
    exact after_of_forall_not_mem _ _ (List.forall_iff_forall_mem.mp (by
      simp only [ops, srcOps, tgtOps, denseOps, List.cons_append, List.nil_append, List.Forall, nullary_writes, unary_writes, binary_writes, ternary_writes, nary_writes, Finset.mem_singleton]
      repeat' apply And.intro
      all_goals exact devRef_ne_of_ne (by decide)))

/-- Every weakly fair execution of the reference's @main terminates; the result buffer ends at the layer of the launched
    edge array, the rows gathered from the launched node table by the launched source and target indices, the launched
    weights and bias; the six arguments end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
        = layerTerm (m ((c.tc : Thread nD τ).loc main_arg0))
            (takeRows (m ((c.tc : Thread nD τ).loc main_arg1)) (m ((c.tc : Thread nD τ).loc main_arg2)))
            (takeRows (m ((c.tc : Thread nD τ).loc main_arg1)) (m ((c.tc : Thread nD τ).loc main_arg3)))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v7).trans (out_eq _),
       (h c main_arg0).trans (arg_eq _).1,
       (h c main_arg1).trans (arg_eq _).2.1,
       (h c main_arg2).trans (arg_eq _).2.2.1,
       (h c main_arg3).trans (arg_eq _).2.2.2.1,
       (h c main_arg4).trans (arg_eq _).2.2.2.2.1,
       (h c main_arg5).trans (arg_eq _).2.2.2.2.2⟩)
    (run_fold m ρ)

end Cert.ReferenceIdeal.RefRun

end
-- ==== Proof.RefValue.lean ====
/-
  The reference's result, entry by entry.

  The reference's run ends with the result buffer at `layerTerm`: the maximum with zero of the bias-shifted product of
  the concatenated rows with the weight matrix. Read at entry `(r, q)` over the extended reals the product is the sum
  over the 768 positions of the concatenated row; positions 0–255 of that row are the edge's own features, 256–511 the
  gathered source row, 512–767 the gathered target row; the bias broadcast along the rows reads the bias at `q`. So the
  result is the layer of the specification, whose three partial sums are the one sum cut in three.
-/
import proofs.«133019_j56186762167005_1_alg».proof.Proof.RefRun
import proofs.«133019_j56186762167005_1_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx Cert.EdgeLayer

/-! ## The product's operand indices, axis by axis -/

theorem lhs_row (i : S300000x256.Idx) (k : dot_S300000x768_S768x256_S300000x256_1_0_0_1_n_n.contr.Idx) : (dot_S300000x768_S768x256_S300000x256_1_0_0_1_n_n.lhsIdx i k 0).val = (i 0).val := by
  unfold DotDims.lhsIdx
  rw [dif_neg (show ¬(0 : Fin S300000x768.rank) ∈ dot_S300000x768_S768x256_S300000x256_1_0_0_1_n_n.lhsBatch by decide),
    dif_pos (show (0 : Fin S300000x768.rank) ∈ dot_S300000x768_S768x256_S300000x256_1_0_0_1_n_n.lhsNonContracting by decide)]
  rfl

theorem lhs_col (i : S300000x256.Idx) (k : dot_S300000x768_S768x256_S300000x256_1_0_0_1_n_n.contr.Idx) : (dot_S300000x768_S768x256_S300000x256_1_0_0_1_n_n.lhsIdx i k 1).val = (k ⟨0, by decide⟩).val :=
  dot_S300000x768_S768x256_S300000x256_1_0_0_1_n_n.lhsIdx_val_of_single rfl i k

theorem rhs_row (i : S300000x256.Idx) (k : dot_S300000x768_S768x256_S300000x256_1_0_0_1_n_n.contr.Idx) : (dot_S300000x768_S768x256_S300000x256_1_0_0_1_n_n.rhsIdx i k 0).val = (k ⟨0, by decide⟩).val :=
  dot_S300000x768_S768x256_S300000x256_1_0_0_1_n_n.rhsIdx_val_of_single rfl i k

theorem rhs_col (i : S300000x256.Idx) (k : dot_S300000x768_S768x256_S300000x256_1_0_0_1_n_n.contr.Idx) : (dot_S300000x768_S768x256_S300000x256_1_0_0_1_n_n.rhsIdx i k 1).val = (i 1).val := by
  unfold DotDims.rhsIdx
  rw [dif_neg (show ¬(1 : Fin S768x256.rank) ∈ dot_S300000x768_S768x256_S300000x256_1_0_0_1_n_n.rhsBatch by decide),
    dif_pos (show (1 : Fin S768x256.rank) ∈ dot_S300000x768_S768x256_S300000x256_1_0_0_1_n_n.rhsNonContracting by decide)]
  rfl

/-- The 300000 × 768 by 768 × 256 product at entry `(r, q)`: the sum over the 768 contracted positions. -/
theorem product_at (x : FVec Ideal S300000x768 .f32) (w : FVec Ideal S768x256 .f32) (r : Fin 300000) (q : Fin 256) :
    Host.dotGeneral (F := Ideal) dot_S300000x768_S768x256_S300000x256_1_0_0_1_n_n none x w (ix2 r q) = ∑ k : Fin 768, x (ix2 r k) * w (ix2 k q) := by
  simp only [Host.dotGeneral]
  rw [Ideal.dotGeneral_apply, ← Equiv.sum_comp (contrEquiv1 dot_S300000x768_S768x256_S300000x256_1_0_0_1_n_n 768 rfl rfl).symm]
  refine Finset.sum_congr rfl fun k _ => ?_
  have hk := contrEquiv1_symm_val dot_S300000x768_S768x256_S300000x256_1_0_0_1_n_n 768 rfl rfl k
  have el : dot_S300000x768_S768x256_S300000x256_1_0_0_1_n_n.lhsIdx (ix2 r q) ((contrEquiv1 dot_S300000x768_S768x256_S300000x256_1_0_0_1_n_n 768 rfl rfl).symm k) = ix2 r k := funext fun a => Fin.ext (by
    match a with
    | ⟨0, _⟩ => exact lhs_row _ _
    | ⟨1, _⟩ => exact (lhs_col _ _).trans hk)
  have er : dot_S300000x768_S768x256_S300000x256_1_0_0_1_n_n.rhsIdx (ix2 r q) ((contrEquiv1 dot_S300000x768_S768x256_S300000x256_1_0_0_1_n_n 768 rfl rfl).symm k) = ix2 k q := funext fun a => Fin.ext (by
    match a with
    | ⟨0, _⟩ => exact (rhs_row _ _).trans hk
    | ⟨1, _⟩ => exact rhs_col _ _)
  rw [el, er]

/-! ## The concatenated row -/

/-- Positions 0–255 of the concatenated row are the first array's row. -/
theorem concat_top (e s t : S300000x256.Idx → EReal) (r : Fin 300000) (k : Fin 256) :
    concatenate S300000x768 1 [⟨S300000x256, e⟩, ⟨S300000x256, s⟩, ⟨S300000x256, t⟩] concatenates_S300000x256_S300000x256_S300000x256_S300000x768_d1 (ix2 r (wTop k)) = e (ix2 r k) := by
  refine concatenate_apply_piece (t := S300000x768) (1 : Fin S300000x768.rank)
    ([⟨S300000x256, e⟩, ⟨S300000x256, s⟩, ⟨S300000x256, t⟩] : List ((s : Shape) × (s.Idx → EReal))) concatenates_S300000x256_S300000x256_S300000x256_S300000x768_d1
    (ix2 r (wTop k)) 0 (by show (0 : ℕ) < 3; omega) S300000x256 e rfl rfl 0 rfl (ix2 r k) ?_ ?_
  · intro b hb
    match b with
    | ⟨0, _⟩ => rfl
    | ⟨1, _⟩ => exact absurd rfl hb
  · show 0 + k.val = k.val; omega

/-- Positions 256–511 are the second array's row. -/
theorem concat_mid (e s t : S300000x256.Idx → EReal) (r : Fin 300000) (k : Fin 256) :
    concatenate S300000x768 1 [⟨S300000x256, e⟩, ⟨S300000x256, s⟩, ⟨S300000x256, t⟩] concatenates_S300000x256_S300000x256_S300000x256_S300000x768_d1 (ix2 r (wMid k)) = s (ix2 r k) := by
  refine concatenate_apply_piece (t := S300000x768) (1 : Fin S300000x768.rank)
    ([⟨S300000x256, e⟩, ⟨S300000x256, s⟩, ⟨S300000x256, t⟩] : List ((s : Shape) × (s.Idx → EReal))) concatenates_S300000x256_S300000x256_S300000x256_S300000x768_d1
    (ix2 r (wMid k)) 1 (by show (1 : ℕ) < 3; omega) S300000x256 s rfl rfl 256 rfl (ix2 r k) ?_ ?_
  · intro b hb
    match b with
    | ⟨0, _⟩ => rfl
    | ⟨1, _⟩ => exact absurd rfl hb
  · show 256 + k.val = 256 + k.val; rfl

/-- Positions 512–767 are the third array's row. -/
theorem concat_low (e s t : S300000x256.Idx → EReal) (r : Fin 300000) (k : Fin 256) :
    concatenate S300000x768 1 [⟨S300000x256, e⟩, ⟨S300000x256, s⟩, ⟨S300000x256, t⟩] concatenates_S300000x256_S300000x256_S300000x256_S300000x768_d1 (ix2 r (wLow k)) = t (ix2 r k) := by
  refine concatenate_apply_piece (t := S300000x768) (1 : Fin S300000x768.rank)
    ([⟨S300000x256, e⟩, ⟨S300000x256, s⟩, ⟨S300000x256, t⟩] : List ((s : Shape) × (s.Idx → EReal))) concatenates_S300000x256_S300000x256_S300000x256_S300000x768_d1
    (ix2 r (wLow k)) 2 (by show (2 : ℕ) < 3; omega) S300000x256 t rfl rfl 512 rfl (ix2 r k) ?_ ?_
  · intro b hb
    match b with
    | ⟨0, _⟩ => rfl
    | ⟨1, _⟩ => exact absurd rfl hb
  · show 512 + k.val = 512 + k.val; rfl

/-- The bias laid along every row: entry `(r, q)` is the bias at `q`. -/
theorem bias_at (b : S256.Idx → EReal) (r : Fin 300000) (q : Fin 256) :
    broadcastInDim S300000x256 ![0, 1] bcast_S1x256_S300000x256_0_1 (broadcastInDim S1x256 ![1] bcast_S256_S1x256_1 b) (ix2 r q) = b (ix1 q) :=
  (broadcastInDim_oneRow_apply bcast_S1x256_S300000x256_0_1 _ r q).trans
    (broadcastInDim_apply ![1] bcast_S256_S1x256_1 b (ix2 (0 : Fin 1) q) (ix1 q) (fun a => by
      match a with
      | ⟨0, _⟩ => show q.val = if (256 : ℕ) = 1 then 0 else q.val; simp))

/-- THE REFERENCE'S RESULT is the specification's layer. -/
theorem layerTerm_eq (e s t : S300000x256.Idx → EReal) (W : S768x256.Idx → EReal) (b : S256.Idx → EReal) :
    layerTerm (F := Ideal) e s t W b = layer e s t W b := by
  funext i
  obtain ⟨r, q, rfl⟩ : ∃ (r : Fin 300000) (q : Fin 256), i = ix2 r q := ⟨i 0, i 1, eq_ix2 i⟩
  show max (Host.dotGeneral (F := Ideal) dot_S300000x768_S768x256_S300000x256_1_0_0_1_n_n none
        (concatenate S300000x768 1 [⟨S300000x256, e⟩, ⟨S300000x256, s⟩, ⟨S300000x256, t⟩] concatenates_S300000x256_S300000x256_S300000x256_S300000x768_d1) W (ix2 r q)
        + broadcastInDim S300000x256 ![0, 1] bcast_S1x256_S300000x256_0_1 (broadcastInDim S1x256 ![1] bcast_S256_S1x256_1 b) (ix2 r q))
      (Ideal.ofBits .f32 0x00000000#32) = layerAt e s t W b r q
  rw [product_at, bias_at]
  exact layerAt_of_concat e s t W b r q
    (fun k => concatenate S300000x768 1 [⟨S300000x256, e⟩, ⟨S300000x256, s⟩, ⟨S300000x256, t⟩] concatenates_S300000x256_S300000x256_S300000x256_S300000x768_d1 (ix2 r k))
    (concat_top e s t r) (concat_mid e s t r) (concat_low e s t r)

end Cert.ReferenceIdeal.RefValue

end
-- ==== Proof.lean ====
/-
  Edge update of a graph network: for each of 300000 edges, the edge's 256 features, the 256 features of its source
  node and the 256 of its target node (both gathered from a table of 50000 nodes) go through one dense layer,
  `max ([edge | source | target] · W + b, 0)`, with `W` of 768 × 256 and `b` of 256.

  The kernel program gathers the node rows, cuts `W` into its three thirds of 256 rows, and computes, block of 1200
  edges by block, `edge · W₀ + source · W₁ + target · W₂ + b` and its maximum with zero, never forming the row of 768.
  The reference gathers the same rows, forms the row of 768, and takes one product with the whole of `W`.

  Over the extended reals both compute, at edge `r` and feature `q`, the same value: the sum of 768 products cut into
  its three runs of 256 (associativity of addition only, valid at the infinities too, so the finiteness of the inputs is
  never used), the bias at `q` added, the maximum with zero. The gathered rows are the same function of the node table
  and the indices on both sides and are never opened.

  The three frames: the two kernel programs' from their launch-side run; the reference's from its run as a straight
  line of host operations. The kernel's idealization rewrote no operation, so there is nothing to preserve.
-/
import proofs.«133019_j56186762167005_1_alg».proof.Defs
import proofs.«133019_j56186762167005_1_alg».proof.Proof.Gen.Kernel
import proofs.«133019_j56186762167005_1_alg».proof.Proof.Gen.Kernel.Skeleton
import proofs.«133019_j56186762167005_1_alg».proof.Proof.Gen.Kernel.Launch
import proofs.«133019_j56186762167005_1_alg».proof.Proof.Gen.Kernel.Points
import proofs.«133019_j56186762167005_1_alg».proof.Proof.Gen.Kernel.Frame
import proofs.«133019_j56186762167005_1_alg».proof.Proof.Gen.KernelIdeal
import proofs.«133019_j56186762167005_1_alg».proof.Proof.Gen.KernelIdeal.Skeleton
import proofs.«133019_j56186762167005_1_alg».proof.Proof.Gen.KernelIdeal.Launch
import proofs.«133019_j56186762167005_1_alg».proof.Proof.Gen.KernelIdeal.Points
import proofs.«133019_j56186762167005_1_alg».proof.Proof.Gen.KernelIdeal.Frame
import proofs.«133019_j56186762167005_1_alg».proof.Proof.Gen.KernelIdeal.Value
import proofs.«133019_j56186762167005_1_alg».proof.Proof.Gen.ReferenceIdeal
import proofs.«133019_j56186762167005_1_alg».proof.Proof.Gen.Pre_finite_inputs
import proofs.«133019_j56186762167005_1_alg».proof.Proof.KernelValue
import proofs.«133019_j56186762167005_1_alg».proof.Proof.RefRun
import proofs.«133019_j56186762167005_1_alg».proof.Proof.RefValue
import Idealize.ShloMosaic.Adequacy
import Idealize.ShloMosaic.Init

noncomputable section

namespace Cert.Proof

open Idealize.ShloMosaic Idealize.ShloMosaic.TcCoe Idealize.SL.Sem

/-- The gathered rows are one function of the node table and the index array in both programs: the same operations,
    with the same constants, in the same order. -/
theorem gathered_eq (x : (⟨Cert.KernelIdeal.S50000x256, .f32⟩ : BufTy).Contents (Elt Ideal))
    (i : (⟨Cert.KernelIdeal.S300000, .i32⟩ : BufTy).Contents (Elt Ideal)) :
    Cert.ReferenceIdeal.RefRun.takeRows (F := Ideal) x i = Cert.KernelIdeal.HostVals.takeRows (F := Ideal) x i := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories agreeing on the six arguments both programs end with the result at the layer of the edge features,
    the two gathered arrays, the weights and the bias. -/
theorem algebraic : Cert.algebraic_KernelIdeal_ReferenceIdeal := by
  intro m ρ m' ρ' _ hagree
  refine ⟨fun c => Cert.KernelIdeal.Closed.result m c, Cert.KernelIdeal.Closed.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5⟩ := hagree c
  rw [a0, a1, a2, a3, a4, a5, Cert.ReferenceIdeal.RefValue.layerTerm_eq, gathered_eq, gathered_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
